-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1500000x64 : Shape := ⟨2, ![1500000, 64]⟩
abbrev S64x64 : Shape := ⟨2, ![64, 64]⟩
abbrev S64 : Shape := ⟨1, ![64]⟩
abbrev S1500000x2 : Shape := ⟨2, ![1500000, 2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1500000x64 : S_.BroadcastsInDim S1500000x64 (![] : Fin 0 → Fin S1500000x64.rank)
  reducesTo_S1500000x64_S_d0_1 : S1500000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x64 .f32) (main_arg1 : FVec F S1500000x64 .f32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : IVec S1500000x2 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1500000x64 .f32 := Host.absf main_arg1
  let main_cst_0 : FVec F S_ .f32 := constant S_ .f32 0x7F800000#32
  let main_v5 : FVec F S1500000x64 .f32 := broadcastInDim S1500000x64 ![] bcast_S_S1500000x64 main_cst_0
  let main_v6 : IVec S1500000x64 1 := cmpf .olt main_v4 main_v5
  let main_c_1 : IVec S_ 1 := constantI S_ 1 1#1
  let main_v7 : IVec S_ 1 := (fun x v => Host.reduce IntOp.andi x v reducesTo_S1500000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S100000x64 : Shape := ⟨2, ![100000, 64]⟩
abbrev S1500000x64 : Shape := ⟨2, ![1500000, 64]⟩
abbrev S64x64 : Shape := ⟨2, ![64, 64]⟩
abbrev S64 : Shape := ⟨1, ![64]⟩
abbrev S1500000x2 : Shape := ⟨2, ![1500000, 2]⟩
abbrev S15000x64 : Shape := ⟨2, ![15000, 64]⟩
abbrev S1x64 : Shape := ⟨2, ![1, 64]⟩
abbrev S1500000x1 : Shape := ⟨2, ![1500000, 1]⟩
abbrev S1500000 : Shape := ⟨1, ![1500000]⟩
abbrev S_ : Shape := ⟨0, ![]⟩

abbrev nBuf : Space → Nat
  | .hbm => 19
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1500000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1500000x2, .i32⟩
  | .hbm, ⟨11, _⟩ => ⟨S1500000x64, .f32⟩
  | .hbm, ⟨12, _⟩ => ⟨S1500000x1, .i32⟩
  | .hbm, ⟨13, _⟩ => ⟨S1500000, .i32⟩
  | .hbm, ⟨14, _⟩ => ⟨S_, .f32⟩
  | .hbm, ⟨15, _⟩ => ⟨S100000x64, .f32⟩
  | .hbm, ⟨16, _⟩ => ⟨S1500000x1, .i32⟩
  | .hbm, ⟨17, _⟩ => ⟨S100000x64, .f32⟩
  | .hbm, ⟨18, _⟩ => ⟨S100000x64, .f32⟩
  | .local _ .vmem, ⟨0, _⟩ => ⟨S15000x64, .f32⟩
  | .local _ .vmem, ⟨1, _⟩ => ⟨S15000x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S15000x64, .f32⟩
  | .local _ .vmem, ⟨11, _⟩ => ⟨S15000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S15000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S15000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S15000x64_S15000x64_0_0 : ∀ a, (![0, 0] : Fin 2 → Nat) a + S15000x64.size a ≤ S15000x64.size a
  h_S15000x64 : 0 < S15000x64.numel
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S15000x64 : S1x64.Broadcasts S15000x64
  slices_S1500000x2_S1500000x1_0_1 : S1500000x2.Slices ![0, 1] S1500000x1
  shapeCasts_S1500000x1_S1500000 : S1500000x1.ShapeCasts S1500000
  bcast_S_S100000x64 : S_.BroadcastsInDim S100000x64 (![] : Fin 0 → Fin S100000x64.rank)
  bcast_S1500000_S1500000x1_0 : S1500000.BroadcastsInDim S1500000x1 (![0] : Fin 1 → Fin S1500000x1.rank)
  dot_S15000x64_S64x64_S15000x64_1_0_0_1_n_n_wf : DotDims.WF S15000x64 S64x64 S15000x64 [1] [0] [0] [1] [] []
  scatter_S100000x64_S1500000x1_S1500000x64_1_0_0_1_wf : ScatterDims.WF S100000x64 S1500000x1 S1500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S15000x64.size a ≤ S1500000x64.size a
  hwx0_0 : ∀ i : grid0.Coords, EltTy.bits .f32 = 32 ∨ (Rect.block (s := S1500000x64) S15000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S15000x64.size a ≤ S1500000x64.size a
  hwx0_9 : ∀ i : grid0.Coords, EltTy.bits .f32 = 32 ∨ (Rect.block (s := S1500000x64) S15000x64.size (cc0_transform_9 i) (hinb0_9 i)).WholeWords (EltTy.packing .f32)

variable [Facts₀]

def dot_S15000x64_S64x64_S15000x64_1_0_0_1_n_n : DotDims S15000x64 S64x64 S15000x64 where
  lhsContracting := [1]
  rhsContracting := [0]
  lhsNonContracting := [0]
  rhsNonContracting := [1]
  lhsBatch := []
  rhsBatch := []
  wf := dot_S15000x64_S64x64_S15000x64_1_0_0_1_n_n_wf
def scatter_S100000x64_S1500000x1_S1500000x64_1_0_0_1 : ScatterDims S100000x64 S1500000x1 S1500000x64 where
  updateWindowDims := [1]
  insertedWindowDims := [0]
  scatterDimsToOperandDims := [0]
  indexVectorDim := 1
  wf := scatter_S100000x64_S1500000x1_S1500000x64_1_0_0_1_wf

abbrev win0_0 : Pipeline.Window sig grid0 :=
  Pipeline.Window.ofSpec (Memref.whole main_arg1) S15000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S15000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S1500000x64 : Shape := ⟨2, ![1500000, 64]⟩
abbrev S64x64 : Shape := ⟨2, ![64, 64]⟩
abbrev S64 : Shape := ⟨1, ![64]⟩
abbrev S1500000x2 : Shape := ⟨2, ![1500000, 2]⟩
abbrev S1x64 : Shape := ⟨2, ![1, 64]⟩
abbrev S_ : Shape := ⟨0, ![]⟩
abbrev S1500000x1 : Shape := ⟨2, ![1500000, 1]⟩
abbrev S1500000 : Shape := ⟨1, ![1500000]⟩

abbrev nBuf : Space → Nat
  | .hbm => 70
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1500000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1500000x2, .i32⟩
  | .hbm, ⟨11, _⟩ => ⟨S1500000x64, .f32⟩
  | .hbm, ⟨12, _⟩ => ⟨S1x64, .f32⟩
  | .hbm, ⟨13, _⟩ => ⟨S1500000x64, .f32⟩
  | .hbm, ⟨14, _⟩ => ⟨S1500000x64, .f32⟩
  | .hbm, ⟨15, _⟩ => ⟨S1500000x64, .f32⟩
  | .hbm, ⟨16, _⟩ => ⟨S1500000x64, .f32⟩
  | .hbm, ⟨17, _⟩ => ⟨S_, .f32⟩
  | .hbm, ⟨18, _⟩ => ⟨S1500000x64, .f32⟩
  | .hbm, ⟨19, _⟩ => ⟨S1500000x64, .f32⟩
  | .hbm, ⟨20, _⟩ => ⟨S_, .f32⟩
  | .hbm, ⟨21, _⟩ => ⟨S1500000x64, .f32⟩
  | .hbm, ⟨22, _⟩ => ⟨S1500000x64, .f32⟩
  | .hbm, ⟨23, _⟩ => ⟨S1500000x64, .f32⟩
  | .hbm, ⟨24, _⟩ => ⟨S1500000x64, .f32⟩
  | .hbm, ⟨25, _⟩ => ⟨S1x64, .f32⟩
  | .hbm, ⟨26, _⟩ => ⟨S1500000x64, .f32⟩
  | .hbm, ⟨27, _⟩ => ⟨S1500000x64, .f32⟩
  | .hbm, ⟨28, _⟩ => ⟨S1500000x64, .f32⟩
  | .hbm, ⟨29, _⟩ => ⟨S1500000x64, .f32⟩
  | .hbm, ⟨30, _⟩ => ⟨S_, .f32⟩
  | .hbm, ⟨31, _⟩ => ⟨S1500000x64, .f32⟩
  | .hbm, ⟨32, _⟩ => ⟨S1500000x64, .f32⟩
  | .hbm, ⟨33, _⟩ => ⟨S_, .f32⟩
  | .hbm, ⟨34, _⟩ => ⟨S1500000x64, .f32⟩
  | .hbm, ⟨35, _⟩ => ⟨S1500000x64, .f32⟩
  | .hbm, ⟨36, _⟩ => ⟨S1500000x64, .f32⟩
  | .hbm, ⟨37, _⟩ => ⟨S1500000x64, .f32⟩
  | .hbm, ⟨38, _⟩ => ⟨S1x64, .f32⟩
  | .hbm, ⟨39, _⟩ => ⟨S1500000x64, .f32⟩
  | .hbm, ⟨40, _⟩ => ⟨S1500000x64, .f32⟩
  | .hbm, ⟨41, _⟩ => ⟨S1500000x64, .f32⟩
  | .hbm, ⟨42, _⟩ => ⟨S1500000x64, .f32⟩
  | .hbm, ⟨43, _⟩ => ⟨S_, .f32⟩
  | .hbm, ⟨44, _⟩ => ⟨S1500000x64, .f32⟩
  | .hbm, ⟨45, _⟩ => ⟨S1500000x64, .f32⟩
  | .hbm, ⟨46, _⟩ => ⟨S_, .f32⟩
  | .hbm, ⟨47, _⟩ => ⟨S1500000x64, .f32⟩
  | .hbm, ⟨48, _⟩ => ⟨S1500000x64, .f32⟩
  | .hbm, ⟨49, _⟩ => ⟨S1500000x64, .f32⟩
  | .hbm, ⟨50, _⟩ => ⟨S1500000x64, .f32⟩
  | .hbm, ⟨51, _⟩ => ⟨S1x64, .f32⟩
  | .hbm, ⟨52, _⟩ => ⟨S1500000x64, .f32⟩
  | .hbm, ⟨53, _⟩ => ⟨S1500000x64, .f32⟩
  | .hbm, ⟨54, _⟩ => ⟨S1500000x64, .f32⟩
  | .hbm, ⟨55, _⟩ => ⟨S1500000x64, .f32⟩
  | .hbm, ⟨56, _⟩ => ⟨S_, .f32⟩
  | .hbm, ⟨57, _⟩ => ⟨S1500000x64, .f32⟩
  | .hbm, ⟨58, _⟩ => ⟨S1500000x64, .f32⟩
  | .hbm, ⟨59, _⟩ => ⟨S_, .f32⟩
  | .hbm, ⟨60, _⟩ => ⟨S1500000x64, .f32⟩
  | .hbm, ⟨61, _⟩ => ⟨S1500000x64, .f32⟩
  | .hbm, ⟨62, _⟩ => ⟨S1500000x64, .f32⟩
  | .hbm, ⟨63, _⟩ => ⟨S1500000x1, .i32⟩
  | .hbm, ⟨64, _⟩ => ⟨S1500000, .i32⟩
  | .hbm, ⟨65, _⟩ => ⟨S_, .f32⟩
  | .hbm, ⟨66, _⟩ => ⟨S100000x64, .f32⟩
  | .hbm, ⟨67, _⟩ => ⟨S1500000x1, .i32⟩
  | .hbm, ⟨68, _⟩ => ⟨S100000x64, .f32⟩
  | .hbm, ⟨69, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst : Ref sig .tc := ⟨.hbm, 56, rfl⟩
abbrev main_v21 : Ref sig .tc := ⟨.hbm, 57, rfl⟩
abbrev main_v22 : Ref sig .tc := ⟨.hbm, 58, rfl⟩
abbrev main_cst_0 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_1 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1500000x64_0_1 : S1x64.BroadcastsInDim S1500000x64 (![0, 1] : Fin 2 → Fin S1500000x64.rank)
  bcast_S_S1500000x64 : S_.BroadcastsInDim S1500000x64 (![] : Fin 0 → Fin S1500000x64.rank)
  slices_S1500000x2_S1500000x1_0_1 : S1500000x2.Slices ![0, 1] S1500000x1
  shapeCasts_S1500000x1_S1500000 : S1500000x1.ShapeCasts S1500000
  bcast_S_S100000x64 : S_.BroadcastsInDim S100000x64 (![] : Fin 0 → Fin S100000x64.rank)
  bcast_S1500000_S1500000x1_0 : S1500000.BroadcastsInDim S1500000x1 (![0] : Fin 1 → Fin S1500000x1.rank)
  dot_S1500000x64_S64x64_S1500000x64_1_0_0_1_n_n_wf : DotDims.WF S1500000x64 S64x64 S1500000x64 [1] [0] [0] [1] [] []
  scatter_S100000x64_S1500000x1_S1500000x64_1_0_0_1_wf : ScatterDims.WF S100000x64 S1500000x1 S1500000x64 [1] [0] [0] 1

variable [Facts₀]

def dot_S1500000x64_S64x64_S1500000x64_1_0_0_1_n_n : DotDims S1500000x64 S64x64 S1500000x64 where
  lhsContracting := [1]
  rhsContracting := [0]
  lhsNonContracting := [0]
  rhsNonContracting := [1]
  lhsBatch := []
  rhsBatch := []
  wf := dot_S1500000x64_S64x64_S1500000x64_1_0_0_1_n_n_wf
def scatter_S100000x64_S1500000x1_S1500000x64_1_0_0_1 : ScatterDims S100000x64 S1500000x1 S1500000x64 where
  updateWindowDims := [1]
  insertedWindowDims := [0]
  scatterDimsToOperandDims := [0]
  indexVectorDim := 1
  wf := scatter_S100000x64_S1500000x1_S1500000x64_1_0_0_1_wf

class Facts : Prop extends Facts₀ where

variable [Facts]
-- ==== Proof.Message.lean ====
/-
  The message a bond sends, as a function of that bond's feature row alone.

  A bond's feature row v (64 numbers) goes through two small two-layer networks that share the input. A layer is
  affine: out(q) = (sum over k of v(k) * W(k, q)) + b(q). The main branch applies the activation
  swish(z) = z * sigma(z) after each of its two layers (weights W1, b1 then W2, b2); the gate branch applies swish
  after its first layer (G1, g1) and the logistic sigma(z) = 1 / (1 + exp(-z)) itself after its second (G2, g2).
  The message is the entrywise product of the two branches. Everything is read on the extended reals, where every
  operation is total, so no side condition on v or on the weights is needed to state it.

  The array of all messages has one row per bond: row r is the message of row r of the bond features. Because
  the message of a bond reads no other bond's row, any way of cutting the bonds into blocks of rows computes the
  same array.
-/
import Idealize.ShloMosaic.PureOps.Ideal
import Idealize.ShloMosaic.Lib.ValueIdx

noncomputable section

open scoped BigOperators

namespace Cert.Message

open Idealize.ShloMosaic Idealize.ShloMosaic.ValueIdx

/-- A 64 by 64 weight matrix, entry (k, q) at the index `ix2 k q`. -/
abbrev Weights : Type := (⟨2, ![64, 64]⟩ : Shape).Idx → EReal
/-- A bias vector of length 64. -/
abbrev Bias : Type := (⟨1, ![64]⟩ : Shape).Idx → EReal
/-- One row of features. -/
abbrev Row : Type := Fin 64 → EReal
/-- An array of M rows of features, entry (p, k) at the index `ix2 p k`. -/
abbrev Rows (M : Nat) : Type := (⟨2, ![M, 64]⟩ : Shape).Idx → EReal

/-- One affine layer on a row: out(q) = (sum over k of v(k) * W(k, q)) + b(q). -/
def affine (v : Row) (W : Weights) (b : Bias) : Row :=
  fun q => (∑ k : Fin 64, v k * W (ix2 k q)) + b (ix1 q)

/-- The activation z * sigma(z), entry by entry. -/
def swish (v : Row) : Row := fun q => v q * Ideal.logistic (v q)

/-- The logistic function sigma(z) = 1 / (1 + exp(-z)), entry by entry. -/
def gate (v : Row) : Row := fun q => Ideal.logistic (v q)

/-- The message of a bond with feature row v: the main branch swish(affine(swish(affine v))) times the gate branch
    sigma(affine(swish(affine v))), entry by entry. -/
def message (v : Row) (W1 : Weights) (b1 : Bias) (W2 : Weights) (b2 : Bias)
    (G1 : Weights) (g1 : Bias) (G2 : Weights) (g2 : Bias) : Row :=
  fun q => swish (affine (swish (affine v W1 b1)) W2 b2) q * gate (affine (swish (affine v G1 g1)) G2 g2) q

/-- Row p of an array of rows. -/
def row {M : Nat} (y : Rows M) (p : Fin M) : Row := fun k => y (ix2 p k)

/-- The messages of all the bonds: row p of the result is the message of row p of x. -/
def messages {M : Nat} (x : Rows M) (W1 : Weights) (b1 : Bias) (W2 : Weights) (b2 : Bias)
    (G1 : Weights) (g1 : Bias) (G2 : Weights) (g2 : Bias) : Rows M :=
  fun j => message (row x (j 0)) W1 b1 W2 b2 G1 g1 G2 g2 (j 1)

/-- Entry (p, q) of the array of messages is entry q of the message of row p. -/
theorem messages_apply {M : Nat} (x : Rows M) (W1 : Weights) (b1 : Bias) (W2 : Weights) (b2 : Bias)
    (G1 : Weights) (g1 : Bias) (G2 : Weights) (g2 : Bias) (p : Fin M) (q : Fin 64) :
    messages x W1 b1 W2 b2 G1 g1 G2 g2 (ix2 p q) = message (row x p) W1 b1 W2 b2 G1 g1 G2 g2 q := rfl

/-- An array of rows is determined by its rows. -/
theorem rows_ext {M : Nat} (y z : Rows M) (h : ∀ p, row y p = row z p) : y = z := by
  funext j
  rw [eq_ix2 j]
  exact congrFun (h (j 0)) (j 1)

/-- The message array of a block of rows taken out of a larger array is the same block of the larger array's
    messages: if row p of y is row e(p) of x for every p, then row p of the messages of y is row e(p) of the messages
    of x. -/
theorem row_messages_of_rows {M M' : Nat} (x : Rows M) (y : Rows M') (e : Fin M' → Fin M)
    (W1 : Weights) (b1 : Bias) (W2 : Weights) (b2 : Bias) (G1 : Weights) (g1 : Bias) (G2 : Weights) (g2 : Bias)
    (h : ∀ p, row y p = row x (e p)) (p : Fin M') :
    row (messages y W1 b1 W2 b2 G1 g1 G2 g2) p = row (messages x W1 b1 W2 b2 G1 g1 G2 g2) (e p) := by
  funext q
  show message (row y p) W1 b1 W2 b2 G1 g1 G2 g2 q = message (row x (e p)) W1 b1 W2 b2 G1 g1 G2 g2 q
  rw [h p]

end Cert.Message

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.BodyRows.lean ====
/-
  What the kernel body computes on one block of bond rows, read row by row.

  At a grid point the body holds a block of 15000 bond rows and the four weight matrices and biases. Each of its
  four layers is a product of the current block with a 64 by 64 matrix into a zero accumulator, plus the bias
  laid out as one row and repeated down the block; on the extended reals entry (p, q) of such a layer is
  (sum over k of y(p, k) * W(k, q)) + b(q), which only reads row p of the block y. The activations are applied
  entry by entry. So row p of the block the body stores is the message of row p of the block it loaded.
-/
import proofs.«154480_j49443663512043_1_alg».proof.Proof.Gen.KernelIdeal.Skeleton
import proofs.«154480_j49443663512043_1_alg».proof.Proof.Message
import proofs.«154480_j49443663512043_1_alg».proof.Proof.LibPlainDot
import Idealize.ShloMosaic.Lib.ValueLayout

noncomputable section

open scoped BigOperators

namespace Cert.KernelIdeal.Body

open Idealize.ShloMosaic Idealize.ShloMosaic.ValueIdx Cert.KernelIdeal Cert.KernelIdeal.Gen Cert.Message

/-- One layer of the body on a block y: the product y * W into the zero accumulator, plus the bias b cast to one
    row and repeated over the 15000 rows. -/
def dense (y : FVec Ideal S15000x64 .f32) (W : FVec Ideal S64x64 .f32) (b : FVec Ideal S64 .f32) :
    FVec Ideal S15000x64 .f32 :=
  addf (matmul dot_S15000x64_S64x64_S15000x64_1_0_0_1_n_n none y W (constant (F := Ideal) S15000x64 .f32 0x00000000#32))
    (broadcastTo S15000x64 (shapeCast S1x64 b Facts₀.shapeCasts_S64_S1x64) Facts₀.broadcasts_S1x64_S15000x64)

/-- The body's activation on a block: z times the logistic of z, entry by entry. -/
def act (z : FVec Ideal S15000x64 .f32) : FVec Ideal S15000x64 .f32 := mulf z (logistic z)

/-- The value the body stores is the product of its two branches, each two layers deep. -/
theorem stored_eq (x : Vec Ideal S15000x64 .f32) (W1 : Vec Ideal S64x64 .f32) (b1 : Vec Ideal S64 .f32)
    (W2 : Vec Ideal S64x64 .f32) (b2 : Vec Ideal S64 .f32) (G1 : Vec Ideal S64x64 .f32) (g1 : Vec Ideal S64 .f32)
    (G2 : Vec Ideal S64x64 .f32) (g2 : Vec Ideal S64 .f32) :
    k0_pay1 (F := Ideal) x W1 b1 W2 b2 G1 g1 G2 g2
      = mulf (act (dense (act (dense x W1 b1)) W2 b2)) (logistic (dense (act (dense x G1 g1)) G2 g2)) := rfl

/-- Row p of a layer of the body is the affine layer of row p of its input block: the product's entry (p, q) is
    the sum over k of y(p, k) * W(k, q), and the repeated bias row reads b(q). -/
theorem row_dense (y : FVec Ideal S15000x64 .f32) (W : FVec Ideal S64x64 .f32) (b : FVec Ideal S64 .f32)
    (p : Fin 15000) : row (dense y W b) p = affine (row y p) W b := by
  funext q
  refine congrArg₂ (fun s t : EReal => s + t) ?_ ?_
  · exact LibPlainDot.matmul_zero_apply (M := 15000) (K := 64) (N := 64) none y W p q
  · exact (broadcastTo_1b_ab_apply _ Facts₀.broadcasts_S1x64_S15000x64 p q).trans
      (shapeCast_a_1a_apply b Facts₀.shapeCasts_S64_S1x64 0 q)

/-- Row p of an activated block is the activation of row p. -/
theorem row_act (z : FVec Ideal S15000x64 .f32) (p : Fin 15000) : row (act z) p = swish (row z p) := rfl

/-- Row p of the block the body stores is the message of row p of the block of bond features it loaded. -/
theorem row_stored (x : Vec Ideal S15000x64 .f32) (W1 : Vec Ideal S64x64 .f32) (b1 : Vec Ideal S64 .f32)
    (W2 : Vec Ideal S64x64 .f32) (b2 : Vec Ideal S64 .f32) (G1 : Vec Ideal S64x64 .f32) (g1 : Vec Ideal S64 .f32)
    (G2 : Vec Ideal S64x64 .f32) (g2 : Vec Ideal S64 .f32) (p : Fin 15000) :
    row (k0_pay1 (F := Ideal) x W1 b1 W2 b2 G1 g1 G2 g2) p = message (row x p) W1 b1 W2 b2 G1 g1 G2 g2 := by
  rw [stored_eq]
  funext q
  show row (act (dense (act (dense x W1 b1)) W2 b2)) p q * Ideal.logistic (row (dense (act (dense x G1 g1)) G2 g2) p q)
    = message (row x p) W1 b1 W2 b2 G1 g1 G2 g2 q
  rw [row_act, row_dense, row_act, row_dense, row_dense, row_act, row_dense]
  rfl

end Cert.KernelIdeal.Body

end
-- ==== Proof.Blocks.lean ====
/-
  From the blocks the kernel writes back to the whole array of messages.

  The grid has 100 points. At point t the kernel loads rows 15000 t to 15000 t + 14999 of the bond features, the
  whole of each weight matrix and bias, and writes back rows 15000 t to 15000 t + 14999 of its output array.
  Row p of the block it writes is the message of row p of the block it loaded, that is of row 15000 t + p of the bond
  features. Since a bond's message reads only that bond's row, the block written at point t is exactly rows
  15000 t to 15000 t + 14999 of the array of all messages; the 100 blocks cover every row (row r lies in block
  r / 15000), so after the last point the output array is the array of all messages.
-/
import proofs.«154480_j49443663512043_1_alg».proof.Proof.Gen.KernelIdeal.Frame
import proofs.«154480_j49443663512043_1_alg».proof.Proof.BodyRows
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Message

variable (m : (ℓ : Loc nD τ sig) → Buf (Elt Ideal) ℓ)

theorem origin2 : (![0, 0] : Fin 2 → Nat) = fun _ => 0 := funext fun a => by fin_cases a <;> rfl
theorem origin1 : (![0] : Fin 1 → Nat) = fun _ => 0 := funext fun a => by fin_cases a <;> rfl

/-- The block indices at point t: the bond features and the output move down one block of rows per point; every weight
    matrix and bias stays at its one block. -/
theorem block_index : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- A grid point is below 100. -/
theorem point_lt (t : Fin cfg0.N) : t.val < 100 := by
  have h : t.val < grid0.N := t.isLt
  rw [N_0] at h
  exact h

/-- Row p of the block at point t is row 15000 t + p of the array. -/
def globalRow (t : Fin cfg0.N) (p : Fin 15000) : Fin 1500000 :=
  ⟨t.val * 15000 + p.val, by have := point_lt t; have := p.isLt; omega⟩

/-- The bond features' block at point t, row by row: row p of the block is row 15000 t + p of the array. -/
theorem row_features_block (c : Dev nD) (t : Fin cfg0.N) (p : Fin 15000) :
    row (iblk m c 0 t) p = row (V m c main_arg1) (globalRow t p) := by
  obtain ⟨e0, e1, -⟩ := block_index t
  funext k
  show V m c main_arg1 (((cfg0.win 0).blk t).view.emb (ix2 p k)) = V m c main_arg1 (ix2 (globalRow t p) k)
  refine congrArg (V m c main_arg1) (funext fun a => Fin.ext ?_)
  match a with
  | ⟨0, _⟩ => show win0_0.index t (0 : Fin 2) * 15000 + 1 * p.val = t.val * 15000 + p.val; rw [e0]; omega
  | ⟨1, _⟩ => show win0_0.index t (1 : Fin 2) * 64 + 1 * k.val = k.val; rw [e1]; omega

/-- A weight matrix's block is the whole matrix, at every point. -/
theorem weights_block_1 (c : Dev nD) (t : Fin cfg0.N) : iblk m c 1 t = V m c main_arg2 := by
  obtain ⟨-, -, -, -, e0, e1, -⟩ := block_index t
  funext y
  show V m c main_arg2 (((cfg0.win 1).blk t).view.emb y) = V m c main_arg2 y
  refine congrArg (V m c main_arg2) (funext fun a => Fin.ext ?_)
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

theorem weights_block_3 (c : Dev nD) (t : Fin cfg0.N) : iblk m c 3 t = V m c main_arg4 := by
  obtain ⟨-, -, -, -, -, -, -, e0, e1, -⟩ := block_index t
  funext y
  show V m c main_arg4 (((cfg0.win 3).blk t).view.emb y) = V m c main_arg4 y
  refine congrArg (V m c main_arg4) (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

theorem weights_block_5 (c : Dev nD) (t : Fin cfg0.N) : iblk m c 5 t = V m c main_arg6 := by
  obtain ⟨-, -, -, -, -, -, -, -, -, -, e0, e1, -⟩ := block_index t
  funext y
  show V m c main_arg6 (((cfg0.win 5).blk t).view.emb y) = V m c main_arg6 y
  refine congrArg (V m c main_arg6) (funext fun a => Fin.ext ?_)
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega

theorem weights_block_7 (c : Dev nD) (t : Fin cfg0.N) : iblk m c 7 t = V m c main_arg8 := by
  obtain ⟨-, -, -, -, -, -, -, -, -, -, -, -, -, e0, e1, -⟩ := block_index t
  funext y
  show V m c main_arg8 (((cfg0.win 7).blk t).view.emb y) = V m c main_arg8 y
  refine congrArg (V m c main_arg8) (funext fun a => Fin.ext ?_)
  match a with
  | ⟨0, _⟩ => show win0_7.index t (0 : Fin 2) * 64 + 1 * (y 0).val = (y 0).val; rw [e0]; omega
  | ⟨1, _⟩ => show win0_7.index t (1 : Fin 2) * 64 + 1 * (y 1).val = (y 1).val; rw [e1]; omega

/-- A bias's block is the whole bias, at every point. -/
theorem bias_block_2 (c : Dev nD) (t : Fin cfg0.N) : iblk m c 2 t = V m c main_arg3 := by
  obtain ⟨-, -, -, -, -, -, e0, -⟩ := block_index t
  funext y
  show V m c main_arg3 (((cfg0.win 2).blk t).view.emb y) = V m c main_arg3 y
  refine congrArg (V m c main_arg3) (funext fun a => Fin.ext ?_)
  match a with
  | ⟨0, _⟩ => show win0_2.index t (0 : Fin 1) * 64 + 1 * (y 0).val = (y 0).val; rw [e0]; omega

theorem bias_block_4 (c : Dev nD) (t : Fin cfg0.N) : iblk m c 4 t = V m c main_arg5 := by
  obtain ⟨-, -, -, -, -, -, -, -, -, e0, -⟩ := block_index t
  funext y
  show V m c main_arg5 (((cfg0.win 4).blk t).view.emb y) = V m c main_arg5 y
  refine congrArg (V m c main_arg5) (funext fun a => Fin.ext ?_)
  match a with
  | ⟨0, _⟩ => show win0_4.index t (0 : Fin 1) * 64 + 1 * (y 0).val = (y 0).val; rw [e0]; omega

theorem bias_block_6 (c : Dev nD) (t : Fin cfg0.N) : iblk m c 6 t = V m c main_arg7 := by
  obtain ⟨-, -, -, -, -, -, -, -, -, -, -, -, e0, -⟩ := block_index t
  funext y
  show V m c main_arg7 (((cfg0.win 6).blk t).view.emb y) = V m c main_arg7 y
  refine congrArg (V m c main_arg7) (funext fun a => Fin.ext ?_)
  match a with
  | ⟨0, _⟩ => show win0_6.index t (0 : Fin 1) * 64 + 1 * (y 0).val = (y 0).val; rw [e0]; omega

theorem bias_block_8 (c : Dev nD) (t : Fin cfg0.N) : iblk m c 8 t = V m c main_arg9 := by
  obtain ⟨-, -, -, -, -, -, -, -, -, -, -, -, -, -, -, e0⟩ := block_index t
  funext y
  show V m c main_arg9 (((cfg0.win 8).blk t).view.emb y) = V m c main_arg9 y
  refine congrArg (V m c main_arg9) (funext fun a => Fin.ext ?_)
  match a with
  | ⟨0, _⟩ => show win0_8.index t (0 : Fin 1) * 64 + 1 * (y 0).val = (y 0).val; rw [e0]; omega

/-- The array of all messages of the argument arrays as the region finds them. -/
abbrev allMessages (c : Dev nD) : Rows 1500000 :=
  messages (V m c main_arg1) (V m c main_arg2) (V m c main_arg3) (V m c main_arg4) (V m c main_arg5)
    (V m c main_arg6) (V m c main_arg7) (V m c main_arg8) (V m c main_arg9)

/-- Entry (p, q) of the output block at point t is entry (15000 t + p, q) of the output array. -/
theorem output_emb (t : Fin cfg0.N) (p : Fin 15000) (q : Fin 64) :
    ((cfg0.win 9).blk t).view.emb (ix2 p q) = ix2 (globalRow t p) q := by
  obtain ⟨-, -, e0, e1, -⟩ := block_index t
  funext a
  apply Fin.ext
  match a with
  | ⟨0, _⟩ => show win0_9.index t (0 : Fin 2) * 15000 + 1 * p.val = t.val * 15000 + p.val; rw [e0]; omega
  | ⟨1, _⟩ => show win0_9.index t (1 : Fin 2) * 64 + 1 * q.val = q.val; rw [e1]; omega

/-- What point t writes back is block t of the array of all messages. -/
theorem flushed_eq (c : Dev nD) (t : Fin cfg0.N) :
    (dats m 0 c).flushed 9 t = ((cfg0.win 9).blk t).view.read (Elt Ideal) (allMessages m c) := by
  show (cfg0.win 9).cut (grid0.coords t) ((dats m 0 c).after 9 t) = _
  rw [after0_9]
  unfold out0_9
  rw [View.canon_unit_zero origin2]
  simp only [View.ld_unit_zero (S := S15000x64) origin2, View.ld_unit_zero (S := S64x64) origin2,
    View.ld_unit_zero (S := S64) origin1]
  rw [weights_block_1, bias_block_2, weights_block_3, bias_block_4, weights_block_5, bias_block_6, weights_block_7,
    bias_block_8]
  funext j
  obtain ⟨p, q, rfl⟩ : ∃ (p : Fin 15000) (q : Fin 64), j = ix2 p q := ⟨j 0, j 1, eq_ix2 j⟩
  show row (k0_pay1 (F := Ideal) (iblk m c 0 t) (V m c main_arg2) (V m c main_arg3) (V m c main_arg4) (V m c main_arg5)
      (V m c main_arg6) (V m c main_arg7) (V m c main_arg8) (V m c main_arg9)) p q
    = allMessages m c (((cfg0.win 9).blk t).view.emb (ix2 p q))
  rw [Body.row_stored, output_emb, row_features_block]
  rfl

/-- An index of the output array is in point t's block iff each coordinate is in the block's range on its axis. -/
theorem mem_block (t : Fin cfg0.N) (i : S1500000x64.Idx) :
    i ∈ ((cfg0.win 9).blk t).view.set ↔ ∀ a : Fin 2, win0_9.index t a * S15000x64.size a ≤ (i a).val
      ∧ (i a).val < win0_9.index t a * S15000x64.size a + S15000x64.size a := by
  show i ∈ ((View.whole main_v0).slice (win0_9.rect t)).set ↔ _
  rw [View.set_slice_whole, Rect.mem_set_unit]
  exact Iff.rfl

/-- Every entry of the output array is written back by some point: row r by point r / 15000. -/
theorem covered (i : S1500000x64.Idx) :
    ∃ t : Fin cfg0.N, (cfg0.win 9).flush t = true ∧ i ∈ ((cfg0.win 9).blk t).view.set := by
  have hi0 : (i 0).val < 1500000 := (i 0).isLt
  have hi1 : (i 1).val < 64 := (i 1).isLt
  have ht : (i 0).val / 15000 < grid0.N := by rw [N_0]; omega
  refine ⟨⟨(i 0).val / 15000, ht⟩, flush0_9 _, ?_⟩
  obtain ⟨-, -, e0, e1, -⟩ := block_index ⟨(i 0).val / 15000, ht⟩
  rw [mem_block]
  intro a
  match a with
  | ⟨0, _⟩ =>
    show win0_9.index ⟨(i 0).val / 15000, ht⟩ (0 : Fin 2) * 15000 ≤ (i 0).val
      ∧ (i 0).val < win0_9.index ⟨(i 0).val / 15000, ht⟩ (0 : Fin 2) * 15000 + 15000
    rw [e0]
    show (i 0).val / 15000 * 15000 ≤ (i 0).val ∧ (i 0).val < (i 0).val / 15000 * 15000 + 15000
    omega
  | ⟨1, _⟩ =>
    show win0_9.index ⟨(i 0).val / 15000, ht⟩ (1 : Fin 2) * 64 ≤ (i 1).val
      ∧ (i 1).val < win0_9.index ⟨(i 0).val / 15000, ht⟩ (1 : Fin 2) * 64 + 64
    rw [e1]
    omega

/-- After the last point the output array is the array of all messages of the argument arrays. -/
theorem output_array (c : Dev nD) :
    (dats m 0 c).arrAt 9 cfg0.N
      = messages (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) :=
  (dats m 0 c).arrAt_eq_of_cover 9 (allMessages m c) (fun t _ => flushed_eq m c t) covered

end Cert.KernelIdeal.Blocks

end
-- ==== Proof.Scatter.lean ====
/-
  The last step, shared by both programs: the messages are added into their receiving atoms.

  Column 1 of the array of bond end points names, for each bond, the atom that receives its message. Starting
  from an all-zero array with one row per atom, every message row is added into the row of its receiving atom
  (an accumulating scatter: several bonds may name the same atom), and the result is added to the atom features.
  Both programs spell this step with the same operations, so it is stated once here, as a function of the atom
  features, the end points and the array of messages; the shape side conditions its operations carry are
  arguments, since each program brings its own proofs of them.
-/
import Idealize.ShloMosaic.PureOps
import Idealize.ShloMosaic.PureOps.Ideal

noncomputable section

namespace Cert.Scatter

open Idealize.ShloMosaic

/-- The atom features plus, for each atom, the sum of the messages of the bonds whose column-1 end point is that
    atom: the zero array scattered into with accumulation, then added to the atom features. -/
def scatterInto
    (sd : ScatterDims (⟨2, ![100000, 64]⟩ : Shape) (⟨2, ![1500000, 1]⟩ : Shape) (⟨2, ![1500000, 64]⟩ : Shape))
    (hz : (⟨0, ![]⟩ : Shape).BroadcastsInDim (⟨2, ![100000, 64]⟩ : Shape) (![] : Fin 0 → Fin 2))
    (hs : (⟨2, ![1500000, 2]⟩ : Shape).Slices ![0, 1] (⟨2, ![1500000, 1]⟩ : Shape))
    (hc : (⟨2, ![1500000, 1]⟩ : Shape).ShapeCasts (⟨1, ![1500000]⟩ : Shape))
    (hb : (⟨1, ![1500000]⟩ : Shape).BroadcastsInDim (⟨2, ![1500000, 1]⟩ : Shape) (![0] : Fin 1 → Fin 2))
    (atoms : FVec Ideal (⟨2, ![100000, 64]⟩ : Shape) .f32) (ends : IVec (⟨2, ![1500000, 2]⟩ : Shape) 32)
    (msgs : FVec Ideal (⟨2, ![1500000, 64]⟩ : Shape) .f32) : FVec Ideal (⟨2, ![100000, 64]⟩ : Shape) .f32 :=
  addf atoms
    (Host.scatterAdd sd
      (broadcastInDim (⟨2, ![100000, 64]⟩ : Shape) ![] hz (constant (F := Ideal) (⟨0, ![]⟩ : Shape) .f32 0x00000000#32))
      (broadcastInDim (⟨2, ![1500000, 1]⟩ : Shape) ![0] hb
        (shapeCast (⟨1, ![1500000]⟩ : Shape) (extractStridedSlice (⟨2, ![1500000, 1]⟩ : Shape) ![0, 1] ends hs) hc))
      msgs)

end Cert.Scatter

end
-- ==== Proof.KernelRun.lean ====
/-
  The kernel program's run, read: its result is the shared last step applied to the array of all messages.

  After the launch the program slices column 1 of the end points, scatters the launch's output array into a zero
  array with accumulation and adds the atom features. The launch's output array is the array of all messages
  (the 100 blocks put together), the atom features and the end points are no array of the launch and are read as
  the program was given them; so the result is the last step of the reference applied to the same three arrays.
  No argument array is written by the run.
-/
import proofs.«154480_j49443663512043_1_alg».proof.Proof.Gen.KernelIdeal.Frame
import proofs.«154480_j49443663512043_1_alg».proof.Proof.Blocks
import proofs.«154480_j49443663512043_1_alg».proof.Proof.Scatter
import Idealize.ShloMosaic.Lib.StableHlo.Run
import Idealize.ShloMosaic.Lib.Pipeline.Value

set_option maxRecDepth 16384

noncomputable section

namespace Cert.KernelIdeal.Tail

open Idealize.ShloMosaic Idealize.ShloMosaic.TcCoe Idealize.SL.Sem Idealize.ShloMosaic.StableHlo
open Idealize.ShloMosaic.Pipeline (Dat Cfg Window)
open Cert.KernelIdeal Cert.KernelIdeal.Gen Cert.Message

variable (m : (ℓ : Loc nD τ sig) → Buf (Elt Ideal) ℓ) (ρ : Dev nD → PrngReg)

/-- The last step of the kernel program, as a function of the atom features, the end points and the messages. -/
abbrev lastStep (atoms : FVec Ideal S100000x64 .f32) (ends : IVec S1500000x2 32) (msgs : FVec Ideal S1500000x64 .f32) :
    FVec Ideal S100000x64 .f32 :=
  Cert.Scatter.scatterInto scatter_S100000x64_S1500000x1_S1500000x64_1_0_0_1 Facts₀.bcast_S_S100000x64
    Facts₀.slices_S1500000x2_S1500000x1_0_1 Facts₀.shapeCasts_S1500000x1_S1500000 Facts₀.bcast_S1500000_S1500000x1_0
    atoms ends msgs

/-- The program's result after the operations that follow the launch: the last step applied to the atom features
    and end points as given and to the launch's output array after its last point. -/
theorem result_of_output (c : Dev nD) :
    Pipeline.afterTail₀ cfgs (dats m) 0 (V0 m) [hostOps1] c main_v6
      = lastStep (m ((c : Thread nD τ).loc main_arg0)) (m ((c : Thread nD τ).loc main_arg10))
          ((dats m 0 c).arrAt 9 cfg0.N) := by
  unfold Pipeline.afterTail₀
  show StableHlo.after hostOps1 _ (Proc.devRef .tc main_v6) = _
  after_results
  have h0 : Pipeline.withArrays (cfgs 0).spec c (V0 m c) (fun w => (dats m 0 c).arrAt w (cfgs 0).N)
      (Proc.devRef .tc main_arg0) = m ((c : Thread nD τ).loc main_arg0) :=
    Pipeline.withArrays_of_ne _ c (V0 m c) _ main_arg0 (by decide : ∀ w, Pipeline.arrRef spec0 w ≠ main_arg0)
  have h10 : Pipeline.withArrays (cfgs 0).spec c (V0 m c) (fun w => (dats m 0 c).arrAt w (cfgs 0).N)
      (Proc.devRef .tc main_arg10) = m ((c : Thread nD τ).loc main_arg10) :=
    Pipeline.withArrays_of_ne _ c (V0 m c) _ main_arg10 (by decide : ∀ w, Pipeline.arrRef spec0 w ≠ main_arg10)
  have h9 : Pipeline.withArrays (cfgs 0).spec c (V0 m c) (fun w => (dats m 0 c).arrAt w (cfgs 0).N)
      (Proc.devRef .tc main_v0) = (dats m 0 c).arrAt 9 cfg0.N :=
    Pipeline.withArrays_arr spec0 launch0.win.arr_inj c _ _ 9
  rw [h0, h10, h9]
  rfl

/-- A final state of the frame run has every argument array as it was given: the nine the launch stages are inputs
    of the launch, which never writes an input's array; the atom features and the end points are no array of the
    launch and no later operation writes them. -/
theorem arguments_kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (W_main_arg0 m (dats m) c),
    ((h c).1 0).trans (((dats m 0 c).arrAt_in 0 rfl _).trans ((A_eq m c 0).trans (V_main_arg1 m c))),
    ((h c).1 1).trans (((dats m 0 c).arrAt_in 1 rfl _).trans ((A_eq m c 1).trans (V_main_arg2 m c))),
    ((h c).1 2).trans (((dats m 0 c).arrAt_in 2 rfl _).trans ((A_eq m c 2).trans (V_main_arg3 m c))),
    ((h c).1 3).trans (((dats m 0 c).arrAt_in 3 rfl _).trans ((A_eq m c 3).trans (V_main_arg4 m c))),
    ((h c).1 4).trans (((dats m 0 c).arrAt_in 4 rfl _).trans ((A_eq m c 4).trans (V_main_arg5 m c))),
    ((h c).1 5).trans (((dats m 0 c).arrAt_in 5 rfl _).trans ((A_eq m c 5).trans (V_main_arg6 m c))),
    ((h c).1 6).trans (((dats m 0 c).arrAt_in 6 rfl _).trans ((A_eq m c 6).trans (V_main_arg7 m c))),
    ((h c).1 7).trans (((dats m 0 c).arrAt_in 7 rfl _).trans ((A_eq m c 7).trans (V_main_arg8 m c))),
    ((h c).1 8).trans (((dats m 0 c).arrAt_in 8 rfl _).trans ((A_eq m c 8).trans (V_main_arg9 m c))),
    ((h c).2 main_arg10 (Pipeline.mem_restRefs_of main_arg10 (by decide) (by decide))).trans (W_main_arg10 m (dats m) c)⟩

/-- Every weakly fair execution of the kernel program terminates with its result at the last step applied to the atom
    features, the end points and the array of all messages, and with every argument array as given. -/
theorem run : θ_run defs (onTc (τ := τ) (main (F := Ideal))) ⟨m, fun _ => 0, ρ⟩ (fun r => ∀ c : Dev nD,
      r.2.mem ((c.tc : Thread nD τ).loc main_v6)
        = lastStep (m ((c.tc : Thread nD τ).loc main_arg0)) (m ((c.tc : Thread nD τ).loc main_arg10))
            (messages (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))
              (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨((h c).2 main_v6 (Pipeline.mem_restRefs_of main_v6 (by decide) (by decide))).trans
          ((result_of_output m c).trans
            (congrArg (lastStep (m ((c : Thread nD τ).loc main_arg0)) (m ((c : Thread nD τ).loc main_arg10)))
              (Blocks.output_array m c))),
        arguments_kept m r h c⟩)
    (run_main m ρ)

end Cert.KernelIdeal.Tail

end
-- ==== Proof.RefRows.lean ====
/-
  What the reference computes before its scatter, read row by row: the array of all messages.

  The reference runs the same two branches on the whole array of 1500000 bond rows at once. Each of its four
  layers is a product of the whole array with a 64 by 64 matrix plus the bias broadcast over the rows, and on the
  extended reals its entry (p, q) is (sum over k of y(p, k) * W(k, q)) + b(q). It spells the logistic function as
  1 / (1 + exp(-z)) with the constant 1 broadcast to the array; the word 0x3F800000 denotes exactly 1, so this is
  the logistic function of the extended reals. Hence row p of what it scatters is the message of row p of the
  bond features, and its result is the shared last step applied to that array of messages.
-/
import proofs.«154480_j49443663512043_1_alg».proof.Proof.Gen.ReferenceIdeal.Read
import proofs.«154480_j49443663512043_1_alg».proof.Proof.Message
import proofs.«154480_j49443663512043_1_alg».proof.Proof.Scatter
import proofs.«154480_j49443663512043_1_alg».proof.Proof.LibPlainDot
import Idealize.ShloMosaic.Lib.Pipeline.Value

noncomputable section

open scoped BigOperators

namespace Cert.ReferenceIdeal.Layers

open Idealize.ShloMosaic Idealize.ShloMosaic.ValueIdx Cert.ReferenceIdeal Cert.ReferenceIdeal.Read Cert.Message

/-- One layer of the reference on the whole array y: the product y * W plus the bias b broadcast over the rows. -/
def dense (y : FVec Ideal S1500000x64 .f32) (W : FVec Ideal S64x64 .f32) (b : FVec Ideal S64 .f32) :
    FVec Ideal S1500000x64 .f32 :=
  addf (Host.dotGeneral dot_S1500000x64_S64x64_S1500000x64_1_0_0_1_n_n none y W)
    (broadcastInDim S1500000x64 ![0, 1] Facts₀.bcast_S1x64_S1500000x64_0_1
      (broadcastInDim S1x64 ![1] Facts₀.bcast_S64_S1x64_1 b))

/-- The reference's spelling of the logistic function: 1 / (1 + exp(-z)), the ones broadcast constants. -/
def sigma (z : FVec Ideal S1500000x64 .f32) : FVec Ideal S1500000x64 .f32 :=
  Host.divf (broadcastInDim S1500000x64 ![] Facts₀.bcast_S_S1500000x64 (constant (F := Ideal) S_ .f32 0x3F800000#32))
    (addf (broadcastInDim S1500000x64 ![] Facts₀.bcast_S_S1500000x64 (constant (F := Ideal) S_ .f32 0x3F800000#32))
      (Host.exp (Host.negf z)))

/-- The reference's activation z * sigma(z). -/
def act (z : FVec Ideal S1500000x64 .f32) : FVec Ideal S1500000x64 .f32 := mulf z (sigma z)

/-- What the reference scatters is the product of its two branches, each two layers deep. -/
theorem scattered_eq (x1 : FVec Ideal S1500000x64 .f32) (x2 : FVec Ideal S64x64 .f32) (x3 : FVec Ideal S64 .f32)
    (x4 : FVec Ideal S64x64 .f32) (x5 : FVec Ideal S64 .f32) (x6 : FVec Ideal S64x64 .f32) (x7 : FVec Ideal S64 .f32)
    (x8 : FVec Ideal S64x64 .f32) (x9 : FVec Ideal S64 .f32) :
    val_main_v25 (F := Ideal) x1 x2 x3 x4 x5 x6 x7 x8 x9
      = mulf (act (dense (act (dense x1 x2 x3)) x4 x5)) (sigma (dense (act (dense x1 x6 x7)) x8 x9)) := rfl

/-- The word 0x3F800000 denotes the number 1. -/
theorem one_word : Ideal.ofBits .f32 0x3F800000#32 = 1 := by
  simp [Ideal.ofBits, Ideal.ieee, -EReal.coe_mul]; norm_num

/-- Row p of a layer of the reference is the affine layer of row p of its input. -/
theorem row_dense (y : FVec Ideal S1500000x64 .f32) (W : FVec Ideal S64x64 .f32) (b : FVec Ideal S64 .f32)
    (p : Fin 1500000) : row (dense y W b) p = affine (row y p) W b := by
  funext q
  refine congrArg₂ (fun s t : EReal => s + t) ?_ ?_
  · exact LibPlainDot.dotGeneral_apply (M := 1500000) (K := 64) (N := 64) none .single y W p q
  · refine (broadcastInDim_apply _ Facts₀.bcast_S1x64_S1500000x64_0_1 _ (ix2 p q) (ix2 (0 : Fin 1) q) fun a => ?_).trans
      (broadcastInDim_apply _ Facts₀.bcast_S64_S1x64_1 b (ix2 (0 : Fin 1) q) (ix1 q) fun a => ?_)
    · match a with
      | ⟨0, _⟩ => show 0 = if (1 : Nat) = 1 then 0 else p.val; rw [if_pos rfl]
      | ⟨1, _⟩ => show q.val = if (64 : Nat) = 1 then 0 else q.val; rw [if_neg (by decide)]
    · match a with
      | ⟨0, _⟩ => show q.val = if (64 : Nat) = 1 then 0 else q.val; rw [if_neg (by decide)]

/-- Row p of the reference's logistic is the logistic of row p. -/
theorem row_sigma (z : FVec Ideal S1500000x64 .f32) (p : Fin 1500000) : row (sigma z) p = gate (row z p) := by
  funext q
  show Ideal.div (Ideal.ofBits .f32 0x3F800000#32) (Ideal.ofBits .f32 0x3F800000#32 + Ideal.exp (-(z (ix2 p q))))
    = Ideal.logistic (z (ix2 p q))
  rw [one_word]
  rfl

/-- Row p of the reference's activation is the activation of row p. -/
theorem row_act (z : FVec Ideal S1500000x64 .f32) (p : Fin 1500000) : row (act z) p = swish (row z p) := by
  funext q
  show z (ix2 p q) * row (sigma z) p q = z (ix2 p q) * Ideal.logistic (z (ix2 p q))
  rw [row_sigma]
  rfl

/-- What the reference scatters is the array of all messages. -/
theorem scattered_messages (x1 : FVec Ideal S1500000x64 .f32) (x2 : FVec Ideal S64x64 .f32) (x3 : FVec Ideal S64 .f32)
    (x4 : FVec Ideal S64x64 .f32) (x5 : FVec Ideal S64 .f32) (x6 : FVec Ideal S64x64 .f32) (x7 : FVec Ideal S64 .f32)
    (x8 : FVec Ideal S64x64 .f32) (x9 : FVec Ideal S64 .f32) :
    val_main_v25 (F := Ideal) x1 x2 x3 x4 x5 x6 x7 x8 x9 = messages x1 x2 x3 x4 x5 x6 x7 x8 x9 := by
  rw [scattered_eq]
  refine rows_ext _ _ fun p => ?_
  funext q
  show row (act (dense (act (dense x1 x2 x3)) x4 x5)) p q * row (sigma (dense (act (dense x1 x6 x7)) x8 x9)) p q
    = message (row x1 p) x2 x3 x4 x5 x6 x7 x8 x9 q
  rw [row_act, row_dense, row_act, row_dense, row_sigma, row_dense, row_act, row_dense]
  rfl

/-- The reference's result is the shared last step applied to the atom features, the end points and the array of
    all messages. -/
theorem result_eq (x0 : FVec Ideal S100000x64 .f32) (x1 : FVec Ideal S1500000x64 .f32) (x2 : FVec Ideal S64x64 .f32)
    (x3 : FVec Ideal S64 .f32) (x4 : FVec Ideal S64x64 .f32) (x5 : FVec Ideal S64 .f32) (x6 : FVec Ideal S64x64 .f32)
    (x7 : FVec Ideal S64 .f32) (x8 : FVec Ideal S64x64 .f32) (x9 : FVec Ideal S64 .f32) (x10 : IVec S1500000x2 32) :
    val_main_v31 (F := Ideal) x0 x1 x2 x3 x4 x5 x6 x7 x8 x9 x10
      = Cert.Scatter.scatterInto scatter_S100000x64_S1500000x1_S1500000x64_1_0_0_1 Facts₀.bcast_S_S100000x64
          Facts₀.slices_S1500000x2_S1500000x1_0_1 Facts₀.shapeCasts_S1500000x1_S1500000 Facts₀.bcast_S1500000_S1500000x1_0
          x0 x10 (messages x1 x2 x3 x4 x5 x6 x7 x8 x9) := by
  rw [← scattered_messages]
  rfl

end Cert.ReferenceIdeal.Layers

end
-- ==== Proof.lean ====
/-
  The gated message-passing update of atom features: the kernel program and its reference compute the same array
  on the extended reals.

  Both programs compute out = atom_features + S, where row a of S is the sum of the messages of the bonds whose
  receiving atom (column 1 of the bond's end points) is a. A bond's message is a function of that bond's feature row v
  alone (Proof/Message.lean): with affine layers out(q) = (sum over k of v(k) * W(k, q)) + b(q), the activation
  swish(z) = z * sigma(z) and the logistic function sigma,
      message(v) = swish(affine(swish(affine(v; W1, b1)); W2, b2)) * sigma(affine(swish(affine(v; G1, g1)); G2, g2)).

  The kernel program computes the messages in a launch over 100 blocks of 15000 bond rows, its logistic function
  a single operation, and then scatters them on the host; the reference computes them on the whole array of
  1500000 rows, spelling the logistic function as 1 / (1 + exp(-z)). On the extended reals a matrix product's entry
  (p, q) is the plain sum over k of lhs(p, k) * rhs(k, q) whether it is the launch's product into a zero
  accumulator or the host's product, the single logistic operation is by definition 1 / (1 + exp(-z)), and the
  word 0x3F800000 denotes exactly 1. So row p of what either program scatters is message(row p of the bond
  features): for the launch block by block (Proof/BodyRows.lean, Proof/Blocks.lean: a message reads only its own
  bond's row, so the blocks are blocks of one array, and they cover it), for the reference on the whole array
  (Proof/RefRows.lean). The scatter and the final addition are the same operations in both programs, applied to
  the same three arrays (Proof/Scatter.lean, Proof/KernelRun.lean). No step uses an algebraic law that fails at
  an infinity: the two sides are the same expression, so the precondition that the inputs are finite is not used.

  The three frame claims: the kernel program's two readings by the generated frame of the launch, the reference's
  by its run with the result dropped. The idealization rewrote no operation of the kernel program, so there is
  nothing to preserve.
-/
import proofs.«154480_j49443663512043_1_alg».proof.Defs
import proofs.«154480_j49443663512043_1_alg».proof.Proof.Gen.Kernel
import proofs.«154480_j49443663512043_1_alg».proof.Proof.Gen.Kernel.Skeleton
import proofs.«154480_j49443663512043_1_alg».proof.Proof.Gen.Kernel.Launch
import proofs.«154480_j49443663512043_1_alg».proof.Proof.Gen.Kernel.Points
import proofs.«154480_j49443663512043_1_alg».proof.Proof.Gen.Kernel.Frame
import proofs.«154480_j49443663512043_1_alg».proof.Proof.Gen.KernelIdeal
import proofs.«154480_j49443663512043_1_alg».proof.Proof.Gen.KernelIdeal.Skeleton
import proofs.«154480_j49443663512043_1_alg».proof.Proof.Gen.KernelIdeal.Launch
import proofs.«154480_j49443663512043_1_alg».proof.Proof.Gen.KernelIdeal.Points
import proofs.«154480_j49443663512043_1_alg».proof.Proof.Gen.KernelIdeal.Frame
import proofs.«154480_j49443663512043_1_alg».proof.Proof.Gen.ReferenceIdeal
import proofs.«154480_j49443663512043_1_alg».proof.Proof.Gen.Pre_finite_inputs
import proofs.«154480_j49443663512043_1_alg».proof.Proof.Gen.ReferenceIdeal.Run
import proofs.«154480_j49443663512043_1_alg».proof.Proof.Gen.ReferenceIdeal.Read
import proofs.«154480_j49443663512043_1_alg».proof.Proof.KernelRun
import proofs.«154480_j49443663512043_1_alg».proof.Proof.RefRows
import Idealize.ShloMosaic.Adequacy
import Idealize.ShloMosaic.Init

noncomputable section

namespace Cert.Proof

open Idealize.ShloMosaic Idealize.SL.Sem

/-- The kernel program as printed runs, faults nowhere and leaves its arguments unchanged. -/
theorem frame_kernel : Cert.frame_Kernel := fun m ρ _ => Cert.Kernel.Gen.frame m ρ

/-- The same of the kernel program read on the extended reals. -/
theorem frame_kernel_ideal : Cert.frame_KernelIdeal := fun m ρ _ => Cert.KernelIdeal.Gen.frame m ρ

/-- The reference runs, faults nowhere and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the atom features plus the scattered array of
    all messages: the kernel program by its run read block by block, the reference by its run read on the whole
    array, the shared last step applied to equal arrays. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v31_eq, Cert.ReferenceIdeal.Layers.result_eq, a0, a1, a2, a3, a4, a5, a6, a7, a8,
    a9, a10]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
